-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x130 : Shape := ⟨2, ![50000, 130]⟩
abbrev S2x800000 : Shape := ⟨2, ![2, 800000]⟩
abbrev S130x128 : Shape := ⟨2, ![130, 128]⟩
abbrev S128 : Shape := ⟨1, ![128]⟩
abbrev S128x128 : Shape := ⟨2, ![128, 128]⟩
abbrev S_ : Shape := ⟨0, ![]⟩

class Facts : Prop where
  bcast_S_S50000x130 : S_.BroadcastsInDim S50000x130 (![] : Fin 0 → Fin S50000x130.rank)
  reducesTo_S50000x130_S_d0_1 : S50000x130.ReducesTo [0, 1] S_
  h_S_ : 0 < S_.numel
  bcast_S_S130x128 : S_.BroadcastsInDim S130x128 (![] : Fin 0 → Fin S130x128.rank)
  reducesTo_S130x128_S_d0_1 : S130x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x130 .f32) (main_arg1 : IVec S2x800000 32) (main_arg2 : FVec F S130x128 .f32) (main_arg3 : FVec F S128 .f32) (main_arg4 : FVec F S128x128 .f32) (main_arg5 : FVec F S128 .f32) : IVec S_ 1 :=
  let main_v0 : FVec F S50000x130 .f32 := Host.absf main_arg0
  let main_cst : FVec F S_ .f32 := constant S_ .f32 0x7F800000#32
  let main_v1 : FVec F S50000x130 .f32 := broadcastInDim S50000x130 ![] bcast_S_S50000x130 main_cst
  let main_v2 : IVec S50000x130 1 := cmpf .olt main_v0 main_v1
  let main_c : IVec S_ 1 := constantI S_ 1 1#1
  let main_v3 : IVec S_ 1 := (fun x v => Host.reduce IntOp.andi x v reducesTo_S50000x130_S_d0_1 h_S_) main_v2 main_c
  let main_v4 : FVec F S130x128 .f32 := Host.absf main_arg2
  let main_cst_0 : FVec F S_ .f32 := constant S_ .f32 0x7F800000#32
  let main_v5 : FVec F S130x128 .f32 := broadcastInDim S130x128 ![] bcast_S_S130x128 main_cst_0
  let main_v6 : IVec S130x128 1 := cmpf .olt main_v4 main_v5
  let main_c_1 : IVec S_ 1 := constantI S_ 1 1#1
  let main_v7 : IVec S_ 1 := (fun x v => Host.reduce IntOp.andi x v reducesTo_S130x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x130 : Shape := ⟨2, ![50000, 130]⟩
abbrev S2x800000 : Shape := ⟨2, ![2, 800000]⟩
abbrev S130x128 : Shape := ⟨2, ![130, 128]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S5000x130 : Shape := ⟨2, ![5000, 130]⟩
abbrev S5000x128 : Shape := ⟨2, ![5000, 128]⟩
abbrev S850000x128 : Shape := ⟨2, ![850000, 128]⟩
abbrev S1x128 : Shape := ⟨2, ![1, 128]⟩

abbrev nBuf : Space → Nat
  | .hbm => 128
  | .vmem => 10
  | .smem => 0
  | _ => 0

abbrev bufTy : (tb : Table) → Fin (tcTables nBuf tb) → BufTy
  | .hbm, ⟨0, _⟩ => ⟨S50000x130, .f32⟩
  | .hbm, ⟨1, _⟩ => ⟨S2x800000, .i32⟩
  | .hbm, ⟨2, _⟩ => ⟨S130x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000, .i32⟩
  | .hbm, ⟨70, _⟩ => ⟨S850000, .i32⟩
  | .hbm, ⟨71, _⟩ => ⟨S850000, .i32⟩
  | .hbm, ⟨72, _⟩ => ⟨S_, .f32⟩
  | .hbm, ⟨73, _⟩ => ⟨S850000, .f32⟩
  | .hbm, ⟨74, _⟩ => ⟨S_, .f32⟩
  | .hbm, ⟨75, _⟩ => ⟨S50000, .f32⟩
  | .hbm, ⟨76, _⟩ => ⟨S850000x1, .i32⟩
  | .hbm, ⟨77, _⟩ => ⟨S50000, .f32⟩
  | .hbm, ⟨78, _⟩ => ⟨S_, .f32⟩
  | .hbm, ⟨79, _⟩ => ⟨S50000, .f32⟩
  | .hbm, ⟨80, _⟩ => ⟨S50000, .i1⟩
  | .hbm, ⟨81, _⟩ => ⟨S50000, .f32⟩
  | .hbm, ⟨82, _⟩ => ⟨S_, .f32⟩
  | .hbm, ⟨83, _⟩ => ⟨S_, .f32⟩
  | .hbm, ⟨84, _⟩ => ⟨S50000, .f32⟩
  | .hbm, ⟨85, _⟩ => ⟨S50000, .f32⟩
  | .hbm, ⟨86, _⟩ => ⟨S_, .i32⟩
  | .hbm, ⟨87, _⟩ => ⟨S850000, .i32⟩
  | .hbm, ⟨88, _⟩ => ⟨S850000, .i1⟩
  | .hbm, ⟨89, _⟩ => ⟨S_, .i32⟩
  | .hbm, ⟨90, _⟩ => ⟨S850000, .i32⟩
  | .hbm, ⟨91, _⟩ => ⟨S850000, .i32⟩
  | .hbm, ⟨92, _⟩ => ⟨S850000, .i32⟩
  | .hbm, ⟨93, _⟩ => ⟨S850000x1, .i32⟩
  | .hbm, ⟨94, _⟩ => ⟨S850000, .f32⟩
  | .hbm, ⟨95, _⟩ => ⟨S_, .i32⟩
  | .hbm, ⟨96, _⟩ => ⟨S850000, .i32⟩
  | .hbm, ⟨97, _⟩ => ⟨S850000, .i1⟩
  | .hbm, ⟨98, _⟩ => ⟨S_, .i32⟩
  | .hbm, ⟨99, _⟩ => ⟨S850000, .i32⟩
  | .hbm, ⟨100, _⟩ => ⟨S850000, .i32⟩
  | .hbm, ⟨101, _⟩ => ⟨S850000, .i32⟩
  | .hbm, ⟨102, _⟩ => ⟨S850000x1, .i32⟩
  | .hbm, ⟨103, _⟩ => ⟨S850000, .f32⟩
  | .hbm, ⟨104, _⟩ => ⟨S850000, .f32⟩
  | .hbm, ⟨105, _⟩ => ⟨S50000x128, .f32⟩
  | .hbm, ⟨106, _⟩ => ⟨S_, .i32⟩
  | .hbm, ⟨107, _⟩ => ⟨S850000, .i32⟩
  | .hbm, ⟨108, _⟩ => ⟨S850000, .i1⟩
  | .hbm, ⟨109, _⟩ => ⟨S_, .i32⟩
  | .hbm, ⟨110, _⟩ => ⟨S850000, .i32⟩
  | .hbm, ⟨111, _⟩ => ⟨S850000, .i32⟩
  | .hbm, ⟨112, _⟩ => ⟨S850000, .i32⟩
  | .hbm, ⟨113, _⟩ => ⟨S850000x1, .i32⟩
  | .hbm, ⟨114, _⟩ => ⟨S850000x128, .f32⟩
  | .hbm, ⟨115, _⟩ => ⟨S850000x1, .f32⟩
  | .hbm, ⟨116, _⟩ => ⟨S850000x128, .f32⟩
  | .hbm, ⟨117, _⟩ => ⟨S850000x128, .f32⟩
  | .hbm, ⟨118, _⟩ => ⟨S_, .f32⟩
  | .hbm, ⟨119, _⟩ => ⟨S50000x128, .f32⟩
  | .hbm, ⟨120, _⟩ => ⟨S850000x1, .i32⟩
  | .hbm, ⟨121, _⟩ => ⟨S50000x128, .f32⟩
  | .hbm, ⟨122, _⟩ => ⟨S1x128, .f32⟩
  | .hbm, ⟨123, _⟩ => ⟨S50000x128, .f32⟩
  | .hbm, ⟨124, _⟩ => ⟨S50000x128, .f32⟩
  | .hbm, ⟨125, _⟩ => ⟨S_, .f32⟩
  | .hbm, ⟨126, _⟩ => ⟨S50000x128, .f32⟩
  | .hbm, ⟨127, _⟩ => ⟨S50000x128, .f32⟩
  | .local _ .vmem, ⟨0, _⟩ => ⟨S5000x130, .f32⟩
  | .local _ .vmem, ⟨1, _⟩ => ⟨S5000x130, .f32⟩
  | .local _ .vmem, ⟨2, _⟩ => ⟨S130x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | _, _ => ⟨S50000x130, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_v58 : Ref sig .tc := ⟨.hbm, 85, rfl⟩
abbrev main_c_13 : Ref sig .tc := ⟨.hbm, 86, rfl⟩
abbrev main_v59 : Ref sig .tc := ⟨.hbm, 87, rfl⟩
abbrev main_v60 : Ref sig .tc := ⟨.hbm, 88, rfl⟩
abbrev main_c_14 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_15 : Ref sig .tc := ⟨.hbm, 95, rfl⟩
abbrev main_v66 : Ref sig .tc := ⟨.hbm, 96, rfl⟩
abbrev main_v67 : Ref sig .tc := ⟨.hbm, 97, rfl⟩
abbrev main_c_16 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_call3_cst : Ref sig .tc := ⟨.hbm, 125, rfl⟩
abbrev main_call3_v0 : Ref sig .tc := ⟨.hbm, 126, rfl⟩
abbrev main_v91 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x130 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S130x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x130_S5000x130_0_0 : ∀ a, (![0, 0] : Fin 2 → Nat) a + S5000x130.size a ≤ S5000x130.size a
  h_S5000x130 : 0 < S5000x130.numel
  bitsLt_bf16_f32 : FTy.bits .bf16 < FTy.bits .f32
  inb_S130x128_S130x128_0_0 : ∀ a, (![0, 0] : Fin 2 → Nat) a + S130x128.size a ≤ S130x128.size a
  h_S130x128 : 0 < S130x128.numel
  inb_S5000x128_S5000x128_0_0 : ∀ a, (![0, 0] : Fin 2 → Nat) a + S5000x128.size a ≤ S5000x128.size a
  h_S5000x128 : 0 < S5000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x130_S130x128_S5000x128_1_0_0_1_n_n_wf : DotDims.WF S5000x130 S130x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x130.size a ≤ S50000x130.size a
  hwx0_0 : ∀ i : grid0.Coords, EltTy.bits .f32 = 32 ∨ (Rect.block (s := S50000x130) S5000x130.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S130x128.size a ≤ S130x128.size a
  hwx0_1 : ∀ i : grid0.Coords, EltTy.bits .f32 = 32 ∨ (Rect.block (s := S130x128) S130x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x130_S130x128_S5000x128_1_0_0_1_n_n : DotDims S5000x130 S130x128 S5000x128 where
  lhsContracting := [1]
  rhsContracting := [0]
  lhsNonContracting := [0]
  rhsNonContracting := [1]
  lhsBatch := []
  rhsBatch := []
  wf := dot_S5000x130_S130x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x130.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S130x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v74) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x130 : Shape := ⟨2, ![50000, 130]⟩
abbrev S2x800000 : Shape := ⟨2, ![2, 800000]⟩
abbrev S130x128 : Shape := ⟨2, ![130, 128]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩

abbrev nBuf : Space → Nat
  | .hbm => 128
  | .vmem => 0
  | .smem => 0
  | _ => 0

abbrev bufTy : (tb : Table) → Fin (tcTables nBuf tb) → BufTy
  | .hbm, ⟨0, _⟩ => ⟨S50000x130, .f32⟩
  | .hbm, ⟨1, _⟩ => ⟨S2x800000, .i32⟩
  | .hbm, ⟨2, _⟩ => ⟨S130x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000, .i32⟩
  | .hbm, ⟨70, _⟩ => ⟨S850000, .i32⟩
  | .hbm, ⟨71, _⟩ => ⟨S850000, .i32⟩
  | .hbm, ⟨72, _⟩ => ⟨S_, .f32⟩
  | .hbm, ⟨73, _⟩ => ⟨S850000, .f32⟩
  | .hbm, ⟨74, _⟩ => ⟨S_, .f32⟩
  | .hbm, ⟨75, _⟩ => ⟨S50000, .f32⟩
  | .hbm, ⟨76, _⟩ => ⟨S850000x1, .i32⟩
  | .hbm, ⟨77, _⟩ => ⟨S50000, .f32⟩
  | .hbm, ⟨78, _⟩ => ⟨S_, .f32⟩
  | .hbm, ⟨79, _⟩ => ⟨S50000, .f32⟩
  | .hbm, ⟨80, _⟩ => ⟨S50000, .i1⟩
  | .hbm, ⟨81, _⟩ => ⟨S50000, .f32⟩
  | .hbm, ⟨82, _⟩ => ⟨S_, .f32⟩
  | .hbm, ⟨83, _⟩ => ⟨S_, .f32⟩
  | .hbm, ⟨84, _⟩ => ⟨S50000, .f32⟩
  | .hbm, ⟨85, _⟩ => ⟨S50000, .f32⟩
  | .hbm, ⟨86, _⟩ => ⟨S_, .i32⟩
  | .hbm, ⟨87, _⟩ => ⟨S850000, .i32⟩
  | .hbm, ⟨88, _⟩ => ⟨S850000, .i1⟩
  | .hbm, ⟨89, _⟩ => ⟨S_, .i32⟩
  | .hbm, ⟨90, _⟩ => ⟨S850000, .i32⟩
  | .hbm, ⟨91, _⟩ => ⟨S850000, .i32⟩
  | .hbm, ⟨92, _⟩ => ⟨S850000, .i32⟩
  | .hbm, ⟨93, _⟩ => ⟨S850000x1, .i32⟩
  | .hbm, ⟨94, _⟩ => ⟨S850000, .f32⟩
  | .hbm, ⟨95, _⟩ => ⟨S_, .i32⟩
  | .hbm, ⟨96, _⟩ => ⟨S850000, .i32⟩
  | .hbm, ⟨97, _⟩ => ⟨S850000, .i1⟩
  | .hbm, ⟨98, _⟩ => ⟨S_, .i32⟩
  | .hbm, ⟨99, _⟩ => ⟨S850000, .i32⟩
  | .hbm, ⟨100, _⟩ => ⟨S850000, .i32⟩
  | .hbm, ⟨101, _⟩ => ⟨S850000, .i32⟩
  | .hbm, ⟨102, _⟩ => ⟨S850000x1, .i32⟩
  | .hbm, ⟨103, _⟩ => ⟨S850000, .f32⟩
  | .hbm, ⟨104, _⟩ => ⟨S850000, .f32⟩
  | .hbm, ⟨105, _⟩ => ⟨S50000x128, .f32⟩
  | .hbm, ⟨106, _⟩ => ⟨S_, .i32⟩
  | .hbm, ⟨107, _⟩ => ⟨S850000, .i32⟩
  | .hbm, ⟨108, _⟩ => ⟨S850000, .i1⟩
  | .hbm, ⟨109, _⟩ => ⟨S_, .i32⟩
  | .hbm, ⟨110, _⟩ => ⟨S850000, .i32⟩
  | .hbm, ⟨111, _⟩ => ⟨S850000, .i32⟩
  | .hbm, ⟨112, _⟩ => ⟨S850000, .i32⟩
  | .hbm, ⟨113, _⟩ => ⟨S850000x1, .i32⟩
  | .hbm, ⟨114, _⟩ => ⟨S850000x128, .f32⟩
  | .hbm, ⟨115, _⟩ => ⟨S850000x1, .f32⟩
  | .hbm, ⟨116, _⟩ => ⟨S850000x128, .f32⟩
  | .hbm, ⟨117, _⟩ => ⟨S850000x128, .f32⟩
  | .hbm, ⟨118, _⟩ => ⟨S_, .f32⟩
  | .hbm, ⟨119, _⟩ => ⟨S50000x128, .f32⟩
  | .hbm, ⟨120, _⟩ => ⟨S850000x1, .i32⟩
  | .hbm, ⟨121, _⟩ => ⟨S50000x128, .f32⟩
  | .hbm, ⟨122, _⟩ => ⟨S1x128, .f32⟩
  | .hbm, ⟨123, _⟩ => ⟨S50000x128, .f32⟩
  | .hbm, ⟨124, _⟩ => ⟨S50000x128, .f32⟩
  | .hbm, ⟨125, _⟩ => ⟨S_, .f32⟩
  | .hbm, ⟨126, _⟩ => ⟨S50000x128, .f32⟩
  | .hbm, ⟨127, _⟩ => ⟨S50000x128, .f32⟩
  | _, _ => ⟨S50000x130, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_v58 : Ref sig .tc := ⟨.hbm, 85, rfl⟩
abbrev main_c_13 : Ref sig .tc := ⟨.hbm, 86, rfl⟩
abbrev main_v59 : Ref sig .tc := ⟨.hbm, 87, rfl⟩
abbrev main_v60 : Ref sig .tc := ⟨.hbm, 88, rfl⟩
abbrev main_c_14 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_15 : Ref sig .tc := ⟨.hbm, 95, rfl⟩
abbrev main_v66 : Ref sig .tc := ⟨.hbm, 96, rfl⟩
abbrev main_v67 : Ref sig .tc := ⟨.hbm, 97, rfl⟩
abbrev main_c_16 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_call3_cst : Ref sig .tc := ⟨.hbm, 125, rfl⟩
abbrev main_call3_v0 : Ref sig .tc := ⟨.hbm, 126, rfl⟩
abbrev main_v91 : Ref sig .tc := ⟨.hbm, 127, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x130_S130x128_S50000x128_1_0_0_1_n_n_wf : DotDims.WF S50000x130 S130x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x128_S50000x128_1_0_0_1_n_n_wf : DotDims.WF S50000x128 S128x128 S50000x128 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x130_S130x128_S50000x128_1_0_0_1_n_n : DotDims S50000x130 S130x128 S50000x128 where
  lhsContracting := [1]
  rhsContracting := [0]
  lhsNonContracting := [0]
  rhsNonContracting := [1]
  lhsBatch := []
  rhsBatch := []
  wf := dot_S50000x130_S130x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.NamedRun.lean ====
/-
  The kernel program's run with its result NAMED. @main is twelve segments: stretches of host operations around two
  pipelined regions. The run carries, from segment to segment, every unscoped buffer of the core at known contents: a
  stretch of host operations leaves the fold of its operations over what it found, a region leaves its arrays at what
  its write-backs leave and every other buffer as it found it. After the last segment every unscoped buffer of the
  final state holds the last boundary's contents; read at the six arguments this gives the frame, and read at the
  result buffer it says what @main returns: the last boundary's contents there.
-/
import proofs.«166241_j8160437862403_1_alg».proof.Proof.Gen.KernelIdeal.Frame

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the arguments as launched. -/
theorem run : θ_run defs (onTc (τ := τ) (main (F := F))) ⟨m, fun _ => 0, ρ⟩ (fun r => ∀ c : Dev nD,
      r.2.mem ((c.tc : Thread nD τ).loc main_v91) = W12 m ρ c (Proc.devRef .tc main_v91)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v91 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c)⟩)

end Cert.KernelIdeal.Named

end
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibMatProd.lean ====
/-
  Dense matrix products on the extended reals, as functions of whole arrays.

  `matProd A B` is the product of an m×k by a k×n array: entry (a, b) is the sum over c of A(a, c) · B(c, b). A plain
  product accumulated into zeros (the left operand's columns contracted with the right operand's rows, no batch axes)
  is this function; the host's dot_general with the same dimension numbers is the same sum with no accumulator, so it
  is this function too; and an entry of a product depends on one row of the left operand and one column of the right,
  so the product of a block of rows of A with B is those rows of `matProd A B`. Sums on the extended reals are taken
  in any order, so no finiteness is asked. Nothing here mentions a program.
-/
import Idealize.ShloMosaic.PureOps.Ideal.Laws
import Idealize.ShloMosaic.Lib.ValueIdx
import proofs.«166241_j8160437862403_1_alg».proof.Proof.LibBlockReads

open scoped BigOperators

noncomputable section

namespace Cert.Lib.MatProd

open Idealize.ShloMosaic Idealize.ShloMosaic.ValueIdx

variable {m k n : Nat}

/-- The product of an m×k by a k×n array of extended reals. -/
def matProd (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_apply (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- A plain product into a zero accumulator is `matProd`: entry by entry it is the sum over the contracted
    coordinate. -/
theorem matmul_zero_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (A : FVec Ideal ⟨2, ![m, k]⟩ φ₁) (B : FVec Ideal ⟨2, ![k, n]⟩ φ₂) :
    matmul d prec A B (constant ⟨2, ![m, n]⟩ .f32 0x00000000#32) = matProd A B := by
  funext i
  obtain ⟨a, b, rfl⟩ : ∃ (a : Fin m) (b : Fin n), i = ix2 a b := ⟨i 0, i 1, eq_ix2 i⟩
  exact Cert.Lib.BlockReads.matmul_zero_rows_apply d hlc hrc hln hrn hlb hrb prec A B a b

/-- The host's dot_general is, on the extended reals, the product into a zero accumulator with the same dimension
    numbers: both are the sum over the contracted index of the products of the operands' entries. -/
theorem dotGeneral_eq_matmul_zero {sl sr so : Shape} {φ₁ φ₂ : FTy} (d : DotDims sl sr so)
    (prec prec' : Option ContractPrecision) (sched : HostSchedule) (A : FVec Ideal sl φ₁) (B : FVec Ideal sr φ₂) :
    FloatOps.dotGeneral d prec sched A B = matmul d prec' A B (constant so .f32 0x00000000#32) := by
  funext j
  show _ = FloatOps.matmul d prec' A B _ j
  rw [Ideal.dotGeneral_apply, Ideal.matmul_constant_zero_apply]

/-- So the host's plain dot_general is `matProd`, whatever the precision and the schedule. -/
theorem dotGeneral_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (A : FVec Ideal ⟨2, ![m, k]⟩ φ₁) (B : FVec Ideal ⟨2, ![k, n]⟩ φ₂) :
    FloatOps.dotGeneral d prec sched A B = matProd A B :=
  (dotGeneral_eq_matmul_zero d prec none sched A B).trans (matmul_zero_eq_matProd d hlc hrc hln hrn hlb hrb none A B)

/-- An entry of a product depends on one row of the left operand and one column of the right: if row y of A' is row r
    of A and column b of B' is column b' of B, then `matProd A' B'` at (y, b) is `matProd A B` at (r, b'). So the
    product of a block of rows of A with B is the same rows of `matProd A B`. -/
theorem matProd_block {m' n' : Nat} (A : (⟨2, ![m, k]⟩ : Shape).Idx → EReal) (A' : (⟨2, ![m', k]⟩ : Shape).Idx → EReal)
    (B : (⟨2, ![k, n]⟩ : Shape).Idx → EReal) (B' : (⟨2, ![k, n']⟩ : Shape).Idx → EReal)
    (y : Fin m') (b : Fin n') (r : Fin m) (b' : Fin n)
    (hA : ∀ c : Fin k, A' (ix2 y c) = A (ix2 r c)) (hB : ∀ c : Fin k, B' (ix2 c b) = B (ix2 c b')) :
    matProd A' B' (ix2 y b) = matProd A B (ix2 r b') := by
  rw [matProd_apply, matProd_apply]
  exact Finset.sum_congr rfl fun c _ => by rw [hA c, hB c]

end Cert.Lib.MatProd

end
-- ==== Proof.Aggregation.lean ====
/-
  The graph side of a GCN layer, as functions of arrays. Both programs compute it with the same host operations.

  The graph has 50000 nodes and 800000 edges, given as a 2×800000 array of node numbers: row 0 the sources, row 1 the
  targets. A self-loop is added at every node, so there are 850000 edge ends on each side (`endpoints`). The degree of a
  node counts the ends that target it; `invSqrtDeg` is deg^(-1/2) where the degree is positive and 0 elsewhere; an edge's
  weight is the product of that quantity at its two ends (`edgeWeight`). Node numbers index arrays the way jnp does: a
  negative number counts from the end (`wrapped`). A layer then takes the projected features P (50000×128), sends row
  source(e) of P, scaled by the edge's weight, along every edge e, adds what arrives at each node, adds the bias row and
  clamps below at zero (`aggregate`).

  `twoLayers` is the whole network on the extended reals: project by W1, aggregate, project by W2, aggregate — each
  projection the matrix product of the whole array with the weights.
-/
import proofs.«166241_j8160437862403_1_alg».proof.KernelIdeal
import proofs.«166241_j8160437862403_1_alg».proof.Proof.LibMatProd

noncomputable section

namespace Cert.KernelIdeal.Graph

open Cert.KernelIdeal Idealize.ShloMosaic Cert.Lib.MatProd

variable {F : FTy → Type} [FloatOps F]
variable [Cert.KernelIdeal.Facts]
open Cert.KernelIdeal.Facts₀ Cert.KernelIdeal.Facts

/-- Row 0 of the edge array, as a vector: the edges' source nodes. -/
def sourceCol (e : IVec S2x800000 32) : IVec S800000 32 :=
  shapeCast _ (extractStridedSlice S1x800000 ![0, 0] e slices_S2x800000_S1x800000_0_0) shapeCasts_S1x800000_S800000

/-- Row 1 of the edge array, as a vector: the edges' target nodes. -/
def targetCol (e : IVec S2x800000 32) : IVec S800000 32 :=
  shapeCast _ (extractStridedSlice S1x800000 ![1, 0] e slices_S2x800000_S1x800000_1_0) shapeCasts_S1x800000_S800000

/-- One side of every edge followed by one self-loop end per node: 800000 + 50000 node numbers. -/
def endpoints (col : IVec S800000 32) : IVec S850000 32 :=
  concatenate S850000 0 [⟨S800000, col⟩, ⟨S50000, (iotaInDim S50000 32 0)⟩] concatenates_S800000_S50000_S850000_d0

/-- Node numbers as a column of gather indices, a negative number counted from the end (+50000). -/
def wrapped (s : IVec S850000 32) : IVec S850000x1 32 :=
  broadcastInDim S850000x1 ![0] bcast_S850000_S850000x1_0
    (select (cmpi .slt s (broadcastInDim S850000 ![] bcast_S_S850000 (constantI S_ 32 0#32)))
      (addi s (broadcastInDim S850000 ![] bcast_S_S850000 (constantI S_ 32 50000#32))) s)

/-- The degree of every node: one added per edge end that targets it. -/
def degree (d : IVec S850000 32) : FVec F S50000 .f32 :=
  Host.scatterAdd scatter_S50000_S850000x1_S850000_n_0_0_1
    (broadcastInDim S50000 ![] bcast_S_S50000 (constant S_ .f32 0x00000000#32))
    (broadcastInDim S850000x1 ![0] bcast_S850000_S850000x1_0 d)
    (broadcastInDim S850000 ![] bcast_S_S850000 (constant S_ .f32 0x3F800000#32))

/-- deg^(-1/2) where the degree is positive, 0 elsewhere. -/
def invSqrtDeg (d : IVec S850000 32) : FVec F S50000 .f32 :=
  select (cmpf .ogt (degree (F := F) d) (broadcastInDim S50000 ![] bcast_S_S50000 (constant S_ .f32 0x00000000#32)))
    (Host.rsqrt (degree (F := F) d))
    (broadcastInDim S50000 ![] bcast_S_S50000 (id (constant S_ .f32 0x00000000#32)))

/-- An edge's weight: deg^(-1/2) at its source times deg^(-1/2) at its target. -/
def edgeWeight (s d : IVec S850000 32) : FVec F S850000 .f32 :=
  mulf (Host.gather gather_S50000_S850000x1_S850000_n_0_n_n_0_1_1 (invSqrtDeg (F := F) d) (wrapped s))
    (Host.gather gather_S50000_S850000x1_S850000_n_0_n_n_0_1_1 (invSqrtDeg (F := F) d) (wrapped d))

/-- One layer's aggregation of the projected features P: the weighted rows of P sent along the edges and added at the
    targets, plus the bias row, clamped below at zero. -/
def aggregate (P : FVec F S50000x128 .f32) (s d : IVec S850000 32) (w : FVec F S850000 .f32) (bias : FVec F S128 .f32) :
    FVec F S50000x128 .f32 :=
  maximumf
    (addf
      (Host.scatterAdd scatter_S50000x128_S850000x1_S850000x128_1_0_0_1
        (broadcastInDim S50000x128 ![] bcast_S_S50000x128 (constant S_ .f32 0x00000000#32))
        (broadcastInDim S850000x1 ![0] bcast_S850000_S850000x1_0 d)
        (mulf (Host.gather gather_S50000x128_S850000x1_S850000x128_1_0_n_n_0_1_1128 P (wrapped s))
          (broadcastInDim S850000x128 ![0, 1] bcast_S850000x1_S850000x128_0_1
            (broadcastInDim S850000x1 ![0] bcast_S850000_S850000x1_0 w))))
      (broadcastInDim S50000x128 ![0, 1] bcast_S1x128_S50000x128_0_1 (broadcastInDim S1x128 ![1] bcast_S128_S1x128_1 bias)))
    (broadcastInDim S50000x128 ![] bcast_S_S50000x128 (constant S_ .f32 0x00000000#32))

/-- The network on the extended reals: two layers, each the matrix product with its weights followed by the
    aggregation over the graph. -/
def twoLayers (x : FVec Ideal S50000x130 .f32) (e : IVec S2x800000 32) (W1 : FVec Ideal S130x128 .f32)
    (b1 : FVec Ideal S128 .f32) (W2 : FVec Ideal S128x128 .f32) (b2 : FVec Ideal S128 .f32) : FVec Ideal S50000x128 .f32 :=
  aggregate (F := Ideal)
    (matProd (aggregate (F := Ideal) (matProd x W1) (endpoints (sourceCol e)) (endpoints (targetCol e))
      (edgeWeight (F := Ideal) (endpoints (sourceCol e)) (endpoints (targetCol e))) b1) W2)
    (endpoints (sourceCol e)) (endpoints (targetCol e))
    (edgeWeight (F := Ideal) (endpoints (sourceCol e)) (endpoints (targetCol e))) b2

end Cert.KernelIdeal.Graph

end
-- ==== Proof.HostStretches.lean ====
/-
  The host operations of the kernel program, stretch by stretch, as functions of what they find. @main's host operations
  come in three groups: before the first projection, between the two projections, after the second. From ANY contents V
  of the core's buffers, each group leaves in the buffers that later operations read the graph quantities of
  `Graph`: the edge ends with their self-loops, the edge weights, and a layer's aggregation of the projection it finds;
  and it leaves the arguments it does not write as they were. Each equation is read off the group's operations in order.
-/
import proofs.«166241_j8160437862403_1_alg».proof.Proof.Gen.KernelIdeal.Launch
import proofs.«166241_j8160437862403_1_alg».proof.Proof.Aggregation
import Idealize.ShloMosaic.Lib.StableHlo.Run

noncomputable section

namespace Cert.KernelIdeal.Stretches

open Cert.KernelIdeal Cert.KernelIdeal.Gen Cert.KernelIdeal.Graph
open Idealize.ShloMosaic Idealize.ShloMosaic.TcCoe Idealize.ShloMosaic.StableHlo

variable {F : FTy → Type} [FloatOps F]
variable (V : Valuation τ sig (Elt F))

/-- The buffers' contents when the first projection is entered, from launch contents V. -/
abbrev atFirst : Valuation τ sig (Elt F) := after hostOps0_2 (after hostOps0_1 (after hostOps0 V))
/-- The buffers' contents when the second projection is entered, from the contents V the first one leaves. -/
abbrev atSecond : Valuation τ sig (Elt F) :=
  after hostOps1_4 (after hostOps1_3 (after hostOps1_2 (after hostOps1_1 (after hostOps1 V))))
/-- The buffers' contents at @main's return, from the contents V the second projection leaves. -/
abbrev atReturn : Valuation τ sig (Elt F) := after hostOps2_1 (after hostOps2 V)

/-! ## Before the first projection -/

/-- The edges' sources. -/
theorem first_sourceCol : atFirst V (Proc.devRef .tc main_v1) = sourceCol (V (Proc.devRef .tc main_arg1)) := by
  dsimp only [atFirst, hostOps0, hostOps0_1, hostOps0_2]
  after_results_simp
  rfl
/-- The edges' targets. -/
theorem first_targetCol : atFirst V (Proc.devRef .tc main_v3) = targetCol (V (Proc.devRef .tc main_arg1)) := by
  dsimp only [atFirst, hostOps0, hostOps0_1, hostOps0_2]
  after_results_simp
  rfl
/-- The source ends, self-loops included. -/
theorem first_sources : atFirst V (Proc.devRef .tc main_v5) = endpoints (sourceCol (V (Proc.devRef .tc main_arg1))) := by
  dsimp only [atFirst, hostOps0, hostOps0_1, hostOps0_2]
  after_results_simp
  rfl
/-- The target ends, self-loops included. -/
theorem first_targets : atFirst V (Proc.devRef .tc main_v6) = endpoints (targetCol (V (Proc.devRef .tc main_arg1))) := by
  dsimp only [atFirst, hostOps0, hostOps0_1, hostOps0_2]
  after_results_simp
  rfl
/-- The edge weights. -/
theorem first_weight : atFirst V (Proc.devRef .tc main_v29) = edgeWeight (F := F) (endpoints (sourceCol (V (Proc.devRef .tc main_arg1)))) (endpoints (targetCol (V (Proc.devRef .tc main_arg1)))) := by
  dsimp only [atFirst, hostOps0, hostOps0_1, hostOps0_2]
  after_results_simp
  rfl
/-- Argument 0 is not written. -/
theorem first_arg0 : atFirst V (Proc.devRef .tc main_arg0) = (V (Proc.devRef .tc main_arg0)) := by
  dsimp only [atFirst, hostOps0, hostOps0_1, hostOps0_2]
  after_results_simp
/-- Argument 1 is not written. -/
theorem first_arg1 : atFirst V (Proc.devRef .tc main_arg1) = (V (Proc.devRef .tc main_arg1)) := by
  dsimp only [atFirst, hostOps0, hostOps0_1, hostOps0_2]
  after_results_simp
/-- Argument 2 is not written. -/
theorem first_arg2 : atFirst V (Proc.devRef .tc main_arg2) = (V (Proc.devRef .tc main_arg2)) := by
  dsimp only [atFirst, hostOps0, hostOps0_1, hostOps0_2]
  after_results_simp
/-- Argument 3 is not written. -/
theorem first_arg3 : atFirst V (Proc.devRef .tc main_arg3) = (V (Proc.devRef .tc main_arg3)) := by
  dsimp only [atFirst, hostOps0, hostOps0_1, hostOps0_2]
  after_results_simp
/-- Argument 4 is not written. -/
theorem first_arg4 : atFirst V (Proc.devRef .tc main_arg4) = (V (Proc.devRef .tc main_arg4)) := by
  dsimp only [atFirst, hostOps0, hostOps0_1, hostOps0_2]
  after_results_simp
/-- Argument 5 is not written. -/
theorem first_arg5 : atFirst V (Proc.devRef .tc main_arg5) = (V (Proc.devRef .tc main_arg5)) := by
  dsimp only [atFirst, hostOps0, hostOps0_1, hostOps0_2]
  after_results_simp
/-! ## Between the projections -/

/-- The first layer's output: the aggregation of the first projection. -/
theorem second_features : atSecond V (Proc.devRef .tc main_v47) = aggregate (F := F) (V (Proc.devRef .tc main_v30)) (V (Proc.devRef .tc main_v5)) (V (Proc.devRef .tc main_v6)) (V (Proc.devRef .tc main_v29)) (V (Proc.devRef .tc main_arg3)) := by
  dsimp only [atSecond, hostOps1, hostOps1_1, hostOps1_2, hostOps1_3, hostOps1_4]
  after_results_simp
  rfl
/-- The source ends again. -/
theorem second_sources : atSecond V (Proc.devRef .tc main_v49) = endpoints (V (Proc.devRef .tc main_v1)) := by
  dsimp only [atSecond, hostOps1, hostOps1_1, hostOps1_2, hostOps1_3, hostOps1_4]
  after_results_simp
  rfl
/-- The target ends again. -/
theorem second_targets : atSecond V (Proc.devRef .tc main_v50) = endpoints (V (Proc.devRef .tc main_v3)) := by
  dsimp only [atSecond, hostOps1, hostOps1_1, hostOps1_2, hostOps1_3, hostOps1_4]
  after_results_simp
  rfl
/-- The edge weights again. -/
theorem second_weight : atSecond V (Proc.devRef .tc main_v73) = edgeWeight (F := F) (endpoints (V (Proc.devRef .tc main_v1))) (endpoints (V (Proc.devRef .tc main_v3))) := by
  dsimp only [atSecond, hostOps1, hostOps1_1, hostOps1_2, hostOps1_3, hostOps1_4]
  after_results_simp
  rfl
/-- Argument 4 is not written. -/
theorem second_arg4 : atSecond V (Proc.devRef .tc main_arg4) = (V (Proc.devRef .tc main_arg4)) := by
  dsimp only [atSecond, hostOps1, hostOps1_1, hostOps1_2, hostOps1_3, hostOps1_4]
  after_results_simp
/-- Argument 5 is not written. -/
theorem second_arg5 : atSecond V (Proc.devRef .tc main_arg5) = (V (Proc.devRef .tc main_arg5)) := by
  dsimp only [atSecond, hostOps1, hostOps1_1, hostOps1_2, hostOps1_3, hostOps1_4]
  after_results_simp
/-! ## After the second projection -/

/-- The result: the aggregation of the second projection. -/
theorem return_result : atReturn V (Proc.devRef .tc main_v91) = aggregate (F := F) (V (Proc.devRef .tc main_v74)) (V (Proc.devRef .tc main_v49)) (V (Proc.devRef .tc main_v50)) (V (Proc.devRef .tc main_v73)) (V (Proc.devRef .tc main_arg5)) := by
  dsimp only [atReturn, hostOps2, hostOps2_1]
  after_results_simp
  rfl
end Cert.KernelIdeal.Stretches

end
-- ==== Proof.BodyProduct.lean ====
/-
  What each of the two kernel bodies stores, on the extended reals. A body loads a block of rows of the left matrix and
  the whole right matrix, narrows both to bf16 (on the extended reals a change of float format is the identity; the
  second body first re-shapes its left block to its own shape), and multiplies them into a zero accumulator. So what it
  stores is the matrix product of the two loaded blocks: entry (a, b) is the sum over c of left(a, c) · right(c, b).
-/
import proofs.«166241_j8160437862403_1_alg».proof.Proof.Gen.KernelIdeal.Skeleton
import proofs.«166241_j8160437862403_1_alg».proof.Proof.LibMatProd
import Idealize.ShloMosaic.Lib.Pipeline.Value

noncomputable section

namespace Cert.KernelIdeal.Body

open Cert.KernelIdeal Cert.KernelIdeal.Gen Idealize.ShloMosaic Cert.Lib.MatProd

variable [Cert.KernelIdeal.Facts]

/-- The first body's stored value is the product of its 5000×130 block of rows with the 130×128 matrix. -/
theorem first_product (x0 : Vec Ideal S5000x130 .f32) (x1 : Vec Ideal S130x128 .f32) :
    k0_pay1 (F := Ideal) x0 x1 = matProd x0 x1 := by
  unfold k0_pay1
  exact matmul_zero_eq_matProd dot_S5000x130_S130x128_S5000x128_1_0_0_1_n_n rfl rfl rfl rfl rfl rfl none _ _

/-- The second body's stored value is the product of its 5000×128 block of rows with the 128×128 matrix. -/
theorem second_product (x0 : Vec Ideal S5000x128 .f32) (x1 : Vec Ideal S128x128 .f32) :
    k1_pay1 (F := Ideal) x0 x1 = matProd x0 x1 := by
  unfold k1_pay1
  rw [shapeCast_self]
  exact matmul_zero_eq_matProd dot_S5000x128_S128x128_S5000x128_1_0_0_1_n_n rfl rfl rfl rfl rfl rfl none _ _

end Cert.KernelIdeal.Body

end
-- ==== Proof.LibRowBlocks.lean ====
/-
  Blocks of rows of a matrix product. An entry of a product depends on one row of the left operand, so a block of
  consecutive rows of A, multiplied by B, is the same block of rows of the product of A with B. Stated here with the
  two indices as variables: the index y inside the block and the index i of the whole array it sits at.
  Nothing here mentions a program.
-/
import Idealize.ShloMosaic.Lib.ValueIdx
import proofs.«166241_j8160437862403_1_alg».proof.Proof.LibMatProd

open scoped BigOperators

noncomputable section

namespace Cert.Lib.RowBlocks

open Idealize.ShloMosaic Idealize.ShloMosaic.ValueIdx Cert.Lib.MatProd

/-- The zero offset of a rank-2 rectangle, as a constant function. -/
theorem zero_offset2 : (![0, 0] : Fin 2 → Nat) = fun _ => 0 := funext fun a => by fin_cases a <;> rfl

/-- If row (y 0) of A' is row (i 0) of A, and y and i have the same column, the product of A' with B at y is the
    product of A with B at i. -/
theorem matProd_rows {m m' k n : Nat} (A : (⟨2, ![m, k]⟩ : Shape).Idx → EReal) (A' : (⟨2, ![m', k]⟩ : Shape).Idx → EReal)
    (B : (⟨2, ![k, n]⟩ : Shape).Idx → EReal) (y : (⟨2, ![m', n]⟩ : Shape).Idx) (i : (⟨2, ![m, n]⟩ : Shape).Idx)
    (hA : ∀ c : Fin k, A' (ix2 (⟨(y 0).val, idx2_lt0 y⟩ : Fin m') c) = A (ix2 (⟨(i 0).val, idx2_lt0 i⟩ : Fin m) c))
    (hcol : (y 1).val = (i 1).val) :
    matProd A' B y = matProd A B i := by
  obtain ⟨p, q, rfl⟩ : ∃ (p : Fin m') (q : Fin n), y = ix2 p q := ⟨y 0, y 1, eq_ix2 y⟩
  obtain ⟨r, s, rfl⟩ : ∃ (r : Fin m) (s : Fin n), i = ix2 r s := ⟨i 0, i 1, eq_ix2 i⟩
  have hqs : q = s := Fin.ext hcol
  subst hqs
  exact matProd_block A A' B B p q r q hA (fun _ => rfl)

end Cert.Lib.RowBlocks

end
-- ==== Proof.FirstProjection.lean ====
/-
  The first projection as the pipeline computes it. Its grid has ten points; point t loads rows 5000·t … 5000·t + 4999
  of the left matrix (a 5000×130 block) and the whole 130×128 right matrix, and writes back the 5000×128 block of rows
  5000·t … of the result. The body stores the product of the two loaded blocks, and an entry of a product depends on
  one row of the left operand only: so what point t writes back is block t of the product of the WHOLE left matrix with
  the right matrix, and since the ten blocks cover all 50000 rows the result array ends holding that product. The
  arrays are read as the region finds them (a parameter here), whatever the host operations before it computed.
-/
import proofs.«166241_j8160437862403_1_alg».proof.Proof.Gen.KernelIdeal.Frame
import proofs.«166241_j8160437862403_1_alg».proof.Proof.BodyProduct
import proofs.«166241_j8160437862403_1_alg».proof.Proof.LibRowBlocks
import Idealize.ShloMosaic.Lib.Pipeline.Value

noncomputable section

namespace Cert.KernelIdeal.Rows0

open Cert.KernelIdeal Cert.KernelIdeal.Gen Idealize.ShloMosaic Idealize.ShloMosaic.TcCoe Idealize.SL.Sem
open Idealize.ShloMosaic.ValueIdx Cert.Lib.MatProd Cert.Lib.RowBlocks
open Idealize.ShloMosaic.Pipeline (Dat)

variable (V : (c : Dev nD) → (b : Ref sig .tc) → Buf (Elt Ideal) ((c : Thread nD τ).loc b))

/-- The index maps over the grid: the left window and the output move one block of rows per point, the right window
    stays at the whole matrix. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The right window's block at every point is the whole right matrix. -/
theorem right_block (c : Dev nD) (t : Fin cfg0.N) :
    (iblk0 V c 1 t : Vec Ideal S130x128 .f32) = V c main_arg2 := by
  obtain ⟨-, -, e2, e3, -, -⟩ := idx_facts t
  funext x
  show V c main_arg2 (((cfg0.win 1).blk t).view.emb x) = V c main_arg2 x
  refine congrArg _ ?_
  funext a; apply Fin.ext
  match a with
  | ⟨0, _⟩ => show win0_1.index t (0 : Fin 2) * 130 + 1 * (x 0).val = (x 0).val; rw [e2]; omega
  | ⟨1, _⟩ => show win0_1.index t (1 : Fin 2) * 128 + 1 * (x 1).val = (x 1).val; rw [e3]; omega

/-- Row p of the left window's block at point t is row 5000·t + p of the left matrix. -/
theorem left_block (c : Dev nD) (t : Fin cfg0.N) (x : S5000x130.Idx) (i : S50000x130.Idx)
    (h0 : (i 0).val = 5000 * t.val + (x 0).val) (h1 : (i 1).val = (x 1).val) :
    (iblk0 V c 0 t : Vec Ideal S5000x130 .f32) x = V c main_arg0 i := by
  obtain ⟨e0, e1, -, -, -, -⟩ := idx_facts t
  show V c main_arg0 (((cfg0.win 0).blk t).view.emb x) = V c main_arg0 i
  refine congrArg _ ?_
  funext a; apply Fin.ext
  match a with
  | ⟨0, _⟩ => show win0_0.index t (0 : Fin 2) * 5000 + 1 * (x 0).val = (i 0).val; rw [e0, h0]; omega
  | ⟨1, _⟩ => show win0_0.index t (1 : Fin 2) * 130 + 1 * (x 1).val = (i 1).val; rw [e1, h1]; omega

/-- What point t writes back is block t of the product of the whole left matrix with the right matrix. -/
theorem flushed_eq (c : Dev nD) (t : Fin cfg0.N) :
    (dat0 V c).flushed 2 t
      = ((cfg0.win 2).blk t).view.read (Elt Ideal) (matProd (V c main_arg0) (V c main_arg2)) := by
  show (cfg0.win 2).cut (grid0.coords t) ((dat0 V c).after 2 t) = _
  rw [after0_2]
  unfold out0_2
  rw [View.canon_unit_zero zero_offset2]
  simp only [View.ld_unit_zero (S := S5000x130) zero_offset2, View.ld_unit_zero (S := S130x128) zero_offset2]
  rw [Cert.KernelIdeal.Body.first_product, right_block V c t]
  obtain ⟨-, -, -, -, e4, e5⟩ := idx_facts t
  funext y
  show matProd (iblk0 V c 0 t : Vec Ideal S5000x130 .f32) (V c main_arg2) y
    = matProd (V c main_arg0) (V c main_arg2) (((cfg0.win 2).blk t).view.emb y)
  have hr : ((((cfg0.win 2).blk t).view.emb y) 0).val = 5000 * t.val + (y 0).val := by
    show win0_2.index t (0 : Fin 2) * 5000 + 1 * (y 0).val = _; rw [e4]; omega
  have hq : ((((cfg0.win 2).blk t).view.emb y) 1).val = (y 1).val := by
    show win0_2.index t (1 : Fin 2) * 128 + 1 * (y 1).val = _; rw [e5]; omega
  refine matProd_rows (m := 50000) (m' := 5000) (k := 130) (n := 128) (V c main_arg0) (iblk0 V c 0 t) (V c main_arg2) y _
    (fun q => left_block V c t _ _ ?_ rfl) hq.symm
  exact hr

/-- An index of the result array is in point t's block iff each coordinate is in the block's range on its axis. -/
theorem mem_blk (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v30).slice (win0_2.rect t)).set ↔ _
  rw [View.set_slice_whole, Rect.mem_set_unit]
  exact Iff.rfl

/-- The result array after the region: the product of the left matrix with the right matrix, whole. Row r is written
    by the point r / 5000. -/
theorem final (c : Dev nD) : (dat0 V c).arrAt 2 cfg0.N = matProd (V c main_arg0) (V c main_arg2) :=
  (dat0 V c).arrAt_eq_of_cover 2 (matProd (V c main_arg0) (V c main_arg2)) (fun t _ => flushed_eq V c t) fun i => by
    have hi0 : (i 0).val < 50000 := (i 0).isLt
    have hi1 : (i 1).val < 128 := (i 1).isLt
    have hN : cfg0.N = 10 := N_0
    obtain ⟨t, ht⟩ : ∃ t : Fin cfg0.N, t.val = (i 0).val / 5000 := ⟨⟨(i 0).val / 5000, by rw [hN]; omega⟩, rfl⟩
    obtain ⟨-, -, -, -, e4, e5⟩ := idx_facts t
    refine ⟨t, flush0_2 t, ?_⟩
    rw [mem_blk]
    intro a
    match a with
    | ⟨0, _⟩ =>
      show win0_2.index t (0 : Fin 2) * 5000 ≤ (i 0).val ∧ (i 0).val < win0_2.index t (0 : Fin 2) * 5000 + 5000
      rw [e4, ht]; omega
    | ⟨1, _⟩ =>
      show win0_2.index t (1 : Fin 2) * 128 ≤ (i 1).val ∧ (i 1).val < win0_2.index t (1 : Fin 2) * 128 + 128
      rw [e5]; omega

end Cert.KernelIdeal.Rows0

end
-- ==== Proof.SecondProjection.lean ====
/-
  The second projection as the pipeline computes it. Its grid has ten points; point t loads rows 5000·t … 5000·t + 4999
  of the left matrix (a 5000×128 block) and the whole 128×128 right matrix, and writes back the 5000×128 block of rows
  5000·t … of the result. The body stores the product of the two loaded blocks, and an entry of a product depends on
  one row of the left operand only: so what point t writes back is block t of the product of the WHOLE left matrix with
  the right matrix, and since the ten blocks cover all 50000 rows the result array ends holding that product. The
  arrays are read as the region finds them (a parameter here), whatever the host operations before it computed.
-/
import proofs.«166241_j8160437862403_1_alg».proof.Proof.Gen.KernelIdeal.Frame
import proofs.«166241_j8160437862403_1_alg».proof.Proof.BodyProduct
import proofs.«166241_j8160437862403_1_alg».proof.Proof.LibRowBlocks
import Idealize.ShloMosaic.Lib.Pipeline.Value

noncomputable section

namespace Cert.KernelIdeal.Rows1

open Cert.KernelIdeal Cert.KernelIdeal.Gen Idealize.ShloMosaic Idealize.ShloMosaic.TcCoe Idealize.SL.Sem
open Idealize.ShloMosaic.ValueIdx Cert.Lib.MatProd Cert.Lib.RowBlocks
open Idealize.ShloMosaic.Pipeline (Dat)

variable (V : (c : Dev nD) → (b : Ref sig .tc) → Buf (Elt Ideal) ((c : Thread nD τ).loc b))

/-- The index maps over the grid: the left window and the output move one block of rows per point, the right window
    stays at the whole matrix. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The right window's block at every point is the whole right matrix. -/
theorem right_block (c : Dev nD) (t : Fin cfg1.N) :
    (iblk1 V c 1 t : Vec Ideal S128x128 .f32) = V c main_arg4 := by
  obtain ⟨-, -, e2, e3, -, -⟩ := idx_facts t
  funext x
  show V c main_arg4 (((cfg1.win 1).blk t).view.emb x) = V c main_arg4 x
  refine congrArg _ ?_
  funext a; apply Fin.ext
  match a with
  | ⟨0, _⟩ => show win1_1.index t (0 : Fin 2) * 128 + 1 * (x 0).val = (x 0).val; rw [e2]; omega
  | ⟨1, _⟩ => show win1_1.index t (1 : Fin 2) * 128 + 1 * (x 1).val = (x 1).val; rw [e3]; omega

/-- Row p of the left window's block at point t is row 5000·t + p of the left matrix. -/
theorem left_block (c : Dev nD) (t : Fin cfg1.N) (x : S5000x128.Idx) (i : S50000x128.Idx)
    (h0 : (i 0).val = 5000 * t.val + (x 0).val) (h1 : (i 1).val = (x 1).val) :
    (iblk1 V c 0 t : Vec Ideal S5000x128 .f32) x = V c main_v47 i := by
  obtain ⟨e0, e1, -, -, -, -⟩ := idx_facts t
  show V c main_v47 (((cfg1.win 0).blk t).view.emb x) = V c main_v47 i
  refine congrArg _ ?_
  funext a; apply Fin.ext
  match a with
  | ⟨0, _⟩ => show win1_0.index t (0 : Fin 2) * 5000 + 1 * (x 0).val = (i 0).val; rw [e0, h0]; omega
  | ⟨1, _⟩ => show win1_0.index t (1 : Fin 2) * 128 + 1 * (x 1).val = (i 1).val; rw [e1, h1]; omega

/-- What point t writes back is block t of the product of the whole left matrix with the right matrix. -/
theorem flushed_eq (c : Dev nD) (t : Fin cfg1.N) :
    (dat1 V c).flushed 2 t
      = ((cfg1.win 2).blk t).view.read (Elt Ideal) (matProd (V c main_v47) (V c main_arg4)) := by
  show (cfg1.win 2).cut (grid1.coords t) ((dat1 V c).after 2 t) = _
  rw [after1_2]
  unfold out1_2
  rw [View.canon_unit_zero zero_offset2]
  simp only [View.ld_unit_zero (S := S5000x128) zero_offset2, View.ld_unit_zero (S := S128x128) zero_offset2]
  rw [Cert.KernelIdeal.Body.second_product, right_block V c t]
  obtain ⟨-, -, -, -, e4, e5⟩ := idx_facts t
  funext y
  show matProd (iblk1 V c 0 t : Vec Ideal S5000x128 .f32) (V c main_arg4) y
    = matProd (V c main_v47) (V c main_arg4) (((cfg1.win 2).blk t).view.emb y)
  have hr : ((((cfg1.win 2).blk t).view.emb y) 0).val = 5000 * t.val + (y 0).val := by
    show win1_2.index t (0 : Fin 2) * 5000 + 1 * (y 0).val = _; rw [e4]; omega
  have hq : ((((cfg1.win 2).blk t).view.emb y) 1).val = (y 1).val := by
    show win1_2.index t (1 : Fin 2) * 128 + 1 * (y 1).val = _; rw [e5]; omega
  refine matProd_rows (m := 50000) (m' := 5000) (k := 128) (n := 128) (V c main_v47) (iblk1 V c 0 t) (V c main_arg4) y _
    (fun q => left_block V c t _ _ ?_ rfl) hq.symm
  exact hr

/-- An index of the result array is in point t's block iff each coordinate is in the block's range on its axis. -/
theorem mem_blk (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v74).slice (win1_2.rect t)).set ↔ _
  rw [View.set_slice_whole, Rect.mem_set_unit]
  exact Iff.rfl

/-- The result array after the region: the product of the left matrix with the right matrix, whole. Row r is written
    by the point r / 5000. -/
theorem final (c : Dev nD) : (dat1 V c).arrAt 2 cfg1.N = matProd (V c main_v47) (V c main_arg4) :=
  (dat1 V c).arrAt_eq_of_cover 2 (matProd (V c main_v47) (V c main_arg4)) (fun t _ => flushed_eq V c t) fun i => by
    have hi0 : (i 0).val < 50000 := (i 0).isLt
    have hi1 : (i 1).val < 128 := (i 1).isLt
    have hN : cfg1.N = 10 := N_1
    obtain ⟨t, ht⟩ : ∃ t : Fin cfg1.N, t.val = (i 0).val / 5000 := ⟨⟨(i 0).val / 5000, by rw [hN]; omega⟩, rfl⟩
    obtain ⟨-, -, -, -, e4, e5⟩ := idx_facts t
    refine ⟨t, flush1_2 t, ?_⟩
    rw [mem_blk]
    intro a
    match a with
    | ⟨0, _⟩ =>
      show win1_2.index t (0 : Fin 2) * 5000 ≤ (i 0).val ∧ (i 0).val < win1_2.index t (0 : Fin 2) * 5000 + 5000
      rw [e4, ht]; omega
    | ⟨1, _⟩ =>
      show win1_2.index t (1 : Fin 2) * 128 ≤ (i 1).val ∧ (i 1).val < win1_2.index t (1 : Fin 2) * 128 + 128
      rw [e5]; omega

end Cert.KernelIdeal.Rows1

end
-- ==== Proof.KernelResult.lean ====
/-
  What the kernel program returns, as a function of its arguments. The result buffer at the last boundary is read back
  through the run: the host operations after the second projection aggregate what that region leaves; the region
  leaves the product of its left array with the second weights; its left array is the first layer's output, which the
  host operations between the regions computed from what the first region leaves — the product of the features with the
  first weights — and from the graph quantities the first host operations computed from the edge array. No region and
  no later host operation writes an argument or a graph quantity it only reads, so each is found where it was left.
  The composite is `Graph.twoLayers` of the six arguments.
-/
import proofs.«166241_j8160437862403_1_alg».proof.Proof.Gen.KernelIdeal.Frame
import proofs.«166241_j8160437862403_1_alg».proof.Proof.HostStretches
import proofs.«166241_j8160437862403_1_alg».proof.Proof.FirstProjection
import proofs.«166241_j8160437862403_1_alg».proof.Proof.SecondProjection

noncomputable section

namespace Cert.KernelIdeal.Result

open Cert.KernelIdeal Cert.KernelIdeal.Gen Cert.KernelIdeal.Graph Cert.KernelIdeal.Stretches
open Idealize.ShloMosaic Idealize.ShloMosaic.TcCoe Idealize.SL.Sem Cert.Lib.MatProd

variable (m : (ℓ : Loc nD τ sig) → Buf (Elt Ideal) ℓ) (ρ : Dev nD → PrngReg) (c : Dev nD)

/-! ## When the first projection is entered -/

theorem first_arg0 : W3 m ρ c (Proc.devRef .tc main_arg0) = (m ((c.tc : Thread nD τ).loc main_arg0)) := Stretches.first_arg0 (W0 m ρ c)
theorem first_arg1 : W3 m ρ c (Proc.devRef .tc main_arg1) = (m ((c.tc : Thread nD τ).loc main_arg1)) := Stretches.first_arg1 (W0 m ρ c)
theorem first_arg2 : W3 m ρ c (Proc.devRef .tc main_arg2) = (m ((c.tc : Thread nD τ).loc main_arg2)) := Stretches.first_arg2 (W0 m ρ c)
theorem first_arg3 : W3 m ρ c (Proc.devRef .tc main_arg3) = (m ((c.tc : Thread nD τ).loc main_arg3)) := Stretches.first_arg3 (W0 m ρ c)
theorem first_arg4 : W3 m ρ c (Proc.devRef .tc main_arg4) = (m ((c.tc : Thread nD τ).loc main_arg4)) := Stretches.first_arg4 (W0 m ρ c)
theorem first_arg5 : W3 m ρ c (Proc.devRef .tc main_arg5) = (m ((c.tc : Thread nD τ).loc main_arg5)) := Stretches.first_arg5 (W0 m ρ c)
theorem first_sourceCol : W3 m ρ c (Proc.devRef .tc main_v1) = sourceCol (m ((c.tc : Thread nD τ).loc main_arg1)) := Stretches.first_sourceCol (W0 m ρ c)
theorem first_targetCol : W3 m ρ c (Proc.devRef .tc main_v3) = targetCol (m ((c.tc : Thread nD τ).loc main_arg1)) := Stretches.first_targetCol (W0 m ρ c)
theorem first_sources : W3 m ρ c (Proc.devRef .tc main_v5) = (endpoints (sourceCol (m ((c.tc : Thread nD τ).loc main_arg1)))) := Stretches.first_sources (W0 m ρ c)
theorem first_targets : W3 m ρ c (Proc.devRef .tc main_v6) = (endpoints (targetCol (m ((c.tc : Thread nD τ).loc main_arg1)))) := Stretches.first_targets (W0 m ρ c)
theorem first_weight : W3 m ρ c (Proc.devRef .tc main_v29) = (edgeWeight (F := Ideal) (endpoints (sourceCol (m ((c.tc : Thread nD τ).loc main_arg1)))) (endpoints (targetCol (m ((c.tc : Thread nD τ).loc main_arg1))))) := Stretches.first_weight (W0 m ρ c)

/-! ## When the first projection is left: its result array holds the product, every other buffer is as entered -/

theorem left_product : W4 m ρ c (Proc.devRef .tc main_v30) = (matProd (m ((c.tc : Thread nD τ).loc main_arg0)) (m ((c.tc : Thread nD τ).loc main_arg2))) := by
  refine (W4_arr m ρ c 2).trans ((Rows0.final (V3 m ρ) c).trans ?_)
  rw [show V3 m ρ c main_arg0 = (m ((c.tc : Thread nD τ).loc main_arg0)) from first_arg0 m ρ c,
    show V3 m ρ c main_arg2 = (m ((c.tc : Thread nD τ).loc main_arg2)) from first_arg2 m ρ c]
theorem left_v1 : W4 m ρ c (Proc.devRef .tc main_v1) = sourceCol (m ((c.tc : Thread nD τ).loc main_arg1)) :=
  (W4_of_ne m ρ c main_v1 (by decide)).trans (first_sourceCol m ρ c)
theorem left_v3 : W4 m ρ c (Proc.devRef .tc main_v3) = targetCol (m ((c.tc : Thread nD τ).loc main_arg1)) :=
  (W4_of_ne m ρ c main_v3 (by decide)).trans (first_targetCol m ρ c)
theorem left_v5 : W4 m ρ c (Proc.devRef .tc main_v5) = (endpoints (sourceCol (m ((c.tc : Thread nD τ).loc main_arg1)))) :=
  (W4_of_ne m ρ c main_v5 (by decide)).trans (first_sources m ρ c)
theorem left_v6 : W4 m ρ c (Proc.devRef .tc main_v6) = (endpoints (targetCol (m ((c.tc : Thread nD τ).loc main_arg1)))) :=
  (W4_of_ne m ρ c main_v6 (by decide)).trans (first_targets m ρ c)
theorem left_v29 : W4 m ρ c (Proc.devRef .tc main_v29) = (edgeWeight (F := Ideal) (endpoints (sourceCol (m ((c.tc : Thread nD τ).loc main_arg1)))) (endpoints (targetCol (m ((c.tc : Thread nD τ).loc main_arg1))))) :=
  (W4_of_ne m ρ c main_v29 (by decide)).trans (first_weight m ρ c)
theorem left_arg3 : W4 m ρ c (Proc.devRef .tc main_arg3) = (m ((c.tc : Thread nD τ).loc main_arg3)) :=
  (W4_of_ne m ρ c main_arg3 (by decide)).trans (first_arg3 m ρ c)
theorem left_arg4 : W4 m ρ c (Proc.devRef .tc main_arg4) = (m ((c.tc : Thread nD τ).loc main_arg4)) :=
  (W4_of_ne m ρ c main_arg4 (by decide)).trans (first_arg4 m ρ c)
theorem left_arg5 : W4 m ρ c (Proc.devRef .tc main_arg5) = (m ((c.tc : Thread nD τ).loc main_arg5)) :=
  (W4_of_ne m ρ c main_arg5 (by decide)).trans (first_arg5 m ρ c)

/-! ## When the second projection is entered -/

theorem second_features : W9 m ρ c (Proc.devRef .tc main_v47) = (aggregate (F := Ideal) (matProd (m ((c.tc : Thread nD τ).loc main_arg0)) (m ((c.tc : Thread nD τ).loc main_arg2))) (endpoints (sourceCol (m ((c.tc : Thread nD τ).loc main_arg1)))) (endpoints (targetCol (m ((c.tc : Thread nD τ).loc main_arg1)))) (edgeWeight (F := Ideal) (endpoints (sourceCol (m ((c.tc : Thread nD τ).loc main_arg1)))) (endpoints (targetCol (m ((c.tc : Thread nD τ).loc main_arg1))))) (m ((c.tc : Thread nD τ).loc main_arg3))) := by
  refine (Stretches.second_features (W4 m ρ c)).trans ?_
  rw [left_product m ρ c, left_v5 m ρ c, left_v6 m ρ c, left_v29 m ρ c, left_arg3 m ρ c]
theorem second_sources : W9 m ρ c (Proc.devRef .tc main_v49) = (endpoints (sourceCol (m ((c.tc : Thread nD τ).loc main_arg1)))) := by
  refine (Stretches.second_sources (W4 m ρ c)).trans ?_
  rw [left_v1 m ρ c]
theorem second_targets : W9 m ρ c (Proc.devRef .tc main_v50) = (endpoints (targetCol (m ((c.tc : Thread nD τ).loc main_arg1)))) := by
  refine (Stretches.second_targets (W4 m ρ c)).trans ?_
  rw [left_v3 m ρ c]
theorem second_weight : W9 m ρ c (Proc.devRef .tc main_v73) = (edgeWeight (F := Ideal) (endpoints (sourceCol (m ((c.tc : Thread nD τ).loc main_arg1)))) (endpoints (targetCol (m ((c.tc : Thread nD τ).loc main_arg1))))) := by
  refine (Stretches.second_weight (W4 m ρ c)).trans ?_
  rw [left_v1 m ρ c, left_v3 m ρ c]
theorem second_arg4 : W9 m ρ c (Proc.devRef .tc main_arg4) = (m ((c.tc : Thread nD τ).loc main_arg4)) :=
  (Stretches.second_arg4 (W4 m ρ c)).trans (left_arg4 m ρ c)
theorem second_arg5 : W9 m ρ c (Proc.devRef .tc main_arg5) = (m ((c.tc : Thread nD τ).loc main_arg5)) :=
  (Stretches.second_arg5 (W4 m ρ c)).trans (left_arg5 m ρ c)

/-! ## When the second projection is left -/

theorem right_product : W10 m ρ c (Proc.devRef .tc main_v74) = matProd (aggregate (F := Ideal) (matProd (m ((c.tc : Thread nD τ).loc main_arg0)) (m ((c.tc : Thread nD τ).loc main_arg2))) (endpoints (sourceCol (m ((c.tc : Thread nD τ).loc main_arg1)))) (endpoints (targetCol (m ((c.tc : Thread nD τ).loc main_arg1)))) (edgeWeight (F := Ideal) (endpoints (sourceCol (m ((c.tc : Thread nD τ).loc main_arg1)))) (endpoints (targetCol (m ((c.tc : Thread nD τ).loc main_arg1))))) (m ((c.tc : Thread nD τ).loc main_arg3))) (m ((c.tc : Thread nD τ).loc main_arg4)) := by
  refine (W10_arr m ρ c 2).trans ((Rows1.final (V9 m ρ) c).trans ?_)
  rw [show V9 m ρ c main_v47 = (aggregate (F := Ideal) (matProd (m ((c.tc : Thread nD τ).loc main_arg0)) (m ((c.tc : Thread nD τ).loc main_arg2))) (endpoints (sourceCol (m ((c.tc : Thread nD τ).loc main_arg1)))) (endpoints (targetCol (m ((c.tc : Thread nD τ).loc main_arg1)))) (edgeWeight (F := Ideal) (endpoints (sourceCol (m ((c.tc : Thread nD τ).loc main_arg1)))) (endpoints (targetCol (m ((c.tc : Thread nD τ).loc main_arg1))))) (m ((c.tc : Thread nD τ).loc main_arg3))) from second_features m ρ c,
    show V9 m ρ c main_arg4 = (m ((c.tc : Thread nD τ).loc main_arg4)) from second_arg4 m ρ c]
theorem right_sources : W10 m ρ c (Proc.devRef .tc main_v49) = (endpoints (sourceCol (m ((c.tc : Thread nD τ).loc main_arg1)))) :=
  (W10_of_ne m ρ c main_v49 (by decide)).trans (second_sources m ρ c)
theorem right_targets : W10 m ρ c (Proc.devRef .tc main_v50) = (endpoints (targetCol (m ((c.tc : Thread nD τ).loc main_arg1)))) :=
  (W10_of_ne m ρ c main_v50 (by decide)).trans (second_targets m ρ c)
theorem right_weight : W10 m ρ c (Proc.devRef .tc main_v73) = (edgeWeight (F := Ideal) (endpoints (sourceCol (m ((c.tc : Thread nD τ).loc main_arg1)))) (endpoints (targetCol (m ((c.tc : Thread nD τ).loc main_arg1))))) :=
  (W10_of_ne m ρ c main_v73 (by decide)).trans (second_weight m ρ c)
theorem right_arg5 : W10 m ρ c (Proc.devRef .tc main_arg5) = (m ((c.tc : Thread nD τ).loc main_arg5)) :=
  (W10_of_ne m ρ c main_arg5 (by decide)).trans (second_arg5 m ρ c)

/-! ## At the return -/

/-- The result buffer at the last boundary is the two-layer network of the six arguments. -/
theorem result_eq : W12 m ρ c (Proc.devRef .tc main_v91)
    = twoLayers (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (Stretches.return_result (W10 m ρ c)).trans ?_
  rw [right_product m ρ c, right_sources m ρ c, right_targets m ρ c, right_weight m ρ c, right_arg5 m ρ c]
  rfl

end Cert.KernelIdeal.Result

end
-- ==== Proof.ReferenceResult.lean ====
/-
  What the reference program returns, as the same function of its arguments. The reference's run ends with the result
  buffer at the composed term of its 122 host operations. That term is the kernel program's network with each
  projection spelt as the host's dot_general; and on the extended reals a dot_general contracting the columns of the
  left operand with the rows of the right is the matrix product, the same sum over the contracted coordinate as the
  kernel's product into a zero accumulator. Everything else in the term is, operation for operation, the graph side
  both programs share. So the term is `Graph.twoLayers` of the six arguments.
-/
import proofs.«166241_j8160437862403_1_alg».proof.Proof.ReferenceRunPatched
import proofs.«166241_j8160437862403_1_alg».proof.Proof.Gen.KernelIdeal
import proofs.«166241_j8160437862403_1_alg».proof.Proof.Aggregation
import proofs.«166241_j8160437862403_1_alg».proof.Proof.LibMatProd

noncomputable section

namespace Cert.ReferenceIdeal.Result

open Cert.ReferenceIdeal Idealize.ShloMosaic Idealize.ShloMosaic.TcCoe Idealize.SL.Sem Cert.Lib.MatProd

/-- The reference's first projection: the features times the first weights. -/
theorem first_dot (x : FVec Ideal S50000x130 .f32) (W : FVec Ideal S130x128 .f32) :
    Host.dotGeneral (F := Ideal) dot_S50000x130_S130x128_S50000x128_1_0_0_1_n_n none x W = matProd x W :=
  dotGeneral_eq_matProd dot_S50000x130_S130x128_S50000x128_1_0_0_1_n_n rfl rfl rfl rfl rfl rfl none .single x W

/-- The reference's second projection: the first layer's output times the second weights. -/
theorem second_dot (x : FVec Ideal S50000x128 .f32) (W : FVec Ideal S128x128 .f32) :
    Host.dotGeneral (F := Ideal) dot_S50000x128_S128x128_S50000x128_1_0_0_1_n_n none x W = matProd x W :=
  dotGeneral_eq_matProd dot_S50000x128_S128x128_S50000x128_1_0_0_1_n_n rfl rfl rfl rfl rfl rfl none .single x W

variable (m : (ℓ : Loc nD τ sig) → Buf (Elt Ideal) ℓ) (c : Dev nD)

set_option maxRecDepth 8192 in
/-- The reference's result term is the two-layer network of its six arguments. -/
theorem result_eq : Cert.ReferenceIdeal.ValueP.res_main_v91 (F := Ideal) m c
    = Cert.KernelIdeal.Graph.twoLayers (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold Cert.ReferenceIdeal.ValueP.res_main_v91
  rw [first_dot, second_dot]
  rfl

end Cert.ReferenceIdeal.Result

end
-- ==== Proof.lean ====
/-
  The certificate of a two-layer graph convolution network whose dense projections run as Pallas kernels.

  Both programs compute, for 50000 nodes with 130 features and 800000 edges: project the features by W1 (130×128), send
  each projected row along the edges (and a self-loop at every node) scaled by deg^(-1/2) at the two ends, add what
  arrives at each node, add the bias, clamp below at zero; then the same again with W2 (128×128). They differ in the two
  projections only: the reference takes one host dot_general over all 50000 rows; the kernel runs a pipelined region
  over ten blocks of 5000 rows, each point narrowing its blocks to bf16 and multiplying them into a zero accumulator.

  On the extended reals a change of float format is the identity and both products are the same sum over the contracted
  coordinate, an entry of which depends on one row of the left operand: so the ten blocks written back are the rows of
  the whole product (Proof/FirstProjection.lean, Proof/SecondProjection.lean over Proof/BodyProduct.lean), the host
  operations around the regions are the same functions in both programs (Proof/Aggregation.lean, read off the kernel
  program stretch by stretch in Proof/HostStretches.lean), and both results are one function of the six arguments,
  `Graph.twoLayers` (Proof/KernelResult.lean over the run of Proof/NamedRun.lean; Proof/ReferenceResult.lean over the
  reference's run). No law that needs finiteness is used: the precondition is never opened. The idealization rewrote
  no operation, so `preserves` is trivial; the three frames are the programs' runs with the results dropped.
-/
import proofs.«166241_j8160437862403_1_alg».proof.Defs
import proofs.«166241_j8160437862403_1_alg».proof.Proof.Gen.Kernel
import proofs.«166241_j8160437862403_1_alg».proof.Proof.Gen.Kernel.Frame
import proofs.«166241_j8160437862403_1_alg».proof.Proof.Gen.KernelIdeal
import proofs.«166241_j8160437862403_1_alg».proof.Proof.Gen.KernelIdeal.Frame
import proofs.«166241_j8160437862403_1_alg».proof.Proof.Gen.ReferenceIdeal
import proofs.«166241_j8160437862403_1_alg».proof.Proof.Gen.Pre_finite_inputs
import proofs.«166241_j8160437862403_1_alg».proof.Proof.NamedRun
import proofs.«166241_j8160437862403_1_alg».proof.Proof.KernelResult
import proofs.«166241_j8160437862403_1_alg».proof.Proof.ReferenceRunPatched
import proofs.«166241_j8160437862403_1_alg».proof.Proof.ReferenceResult
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- From memories agreeing on the arguments both programs end with the result at `Graph.twoLayers` of the arguments. -/
theorem algebraic : Cert.algebraic_KernelIdeal_ReferenceIdeal := by
  intro m ρ m' ρ' _ hagree
  refine ⟨fun c => Cert.KernelIdeal.Graph.twoLayers (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
    (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Result.result_eq m ρ c), (h c).2⟩)
      (Cert.KernelIdeal.Named.run (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.Result.result_eq m' c, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
